-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v12_1)) (v2 : (c : Dev Cert.KernelIdeal.nD) → Buf (Elt Ideal) ((c.tc : Thread Cert.KernelIdeal.nD Cert.KernelIdeal.τ).loc Cert.KernelIdeal.main_v12_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_v12_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v13) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x2048 : Shape := ⟨3, ![4, 2048, 2048]⟩
abbrev S2048x2048 : Shape := ⟨2, ![2048, 2048]⟩
abbrev S2048 : Shape := ⟨1, ![2048]⟩
abbrev S_ : Shape := ⟨0, ![]⟩

class Facts : Prop where
  bcast_S_S4x2048x2048 : S_.BroadcastsInDim S4x2048x2048 (![] : Fin 0 → Fin S4x2048x2048.rank)
  reducesTo_S4x2048x2048_S_d0_1_2 : S4x2048x2048.ReducesTo [0, 1, 2] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  main_v23

def fn {F : FTy → Type} [FloatOps F] (main_arg0 : FVec F S4x2048x2048 .f32) (main_arg1 : FVec F S2048x2048 .f32) (main_arg2 : FVec F S2048x2048 .f32) (main_arg3 : FVec F S2048 .f32) (main_arg4 : FVec F S2048 .f32) : IVec S_ 1 :=
  let main_v0 : FVec F S4x2048x2048 .f32 := Host.absf main_arg0
  let main_cst : FVec F S_ .f32 := constant S_ .f32 0x7F800000#32
  let main_v1 : FVec F S4x2048x2048 .f32 := broadcastInDim S4x2048x2048 ![] bcast_S_S4x2048x2048 main_cst
  let main_v2 : IVec S4x2048x2048 1 := cmpf .olt main_v0 main_v1
  let main_c : IVec S_ 1 := constantI S_ 1 1#1
  let main_v3 : IVec S_ 1 := (fun x v => Host.reduce IntOp.andi x v reducesTo_S4x2048x2048_S_d0_1_2 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_v13 main_v16
-- ==== Kernel.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S_ : Shape := ⟨0, ![]⟩
abbrev S1x2048 : Shape := ⟨2, ![1, 2048]⟩
abbrev S8192 : Shape := ⟨1, ![8192]⟩
abbrev S8192x1 : Shape := ⟨2, ![8192, 1]⟩
abbrev S1024x2048 : Shape := ⟨2, ![1024, 2048]⟩
abbrev S256x2048 : Shape := ⟨2, ![256, 2048]⟩
abbrev S1024x1 : Shape := ⟨2, ![1024, 1]⟩
abbrev S1x256 : Shape := ⟨2, ![1, 256]⟩
abbrev S1024x256 : Shape := ⟨2, ![1024, 256]⟩

abbrev nBuf : Space → Nat
  | .hbm => 39
  | .vmem => 18
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .i1⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048, .f32⟩
  | .hbm, ⟨24, _⟩ => ⟨S2048, .f32⟩
  | .hbm, ⟨25, _⟩ => ⟨S1x2048, .f32⟩
  | .hbm, ⟨26, _⟩ => ⟨S8192x2048, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S8192x1, .f32⟩
  | .hbm, ⟨31, _⟩ => ⟨S8192x2048, .bf16⟩
  | .hbm, ⟨32, _⟩ => ⟨S2048x2048, .bf16⟩
  | .hbm, ⟨33, _⟩ => ⟨S2048x2048, .bf16⟩
  | .hbm, ⟨34, _⟩ => ⟨S1x2048, .f32⟩
  | .hbm, ⟨35, _⟩ => ⟨S1x2048, .f32⟩
  | .hbm, ⟨36, _⟩ => ⟨S8192x2048, .f32⟩
  | .hbm, ⟨37, _⟩ => ⟨S8192x2048, .f32⟩
  | .hbm, ⟨38, _⟩ => ⟨S4x2048x2048, .f32⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S1024x1, .f32⟩
  | .local _ .vmem, ⟨7, _⟩ => ⟨S1024x1, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S1024x256, .f32⟩
  | .local _ .vmem, ⟨15, _⟩ => ⟨S1024x256, .f32⟩
  | .local _ .vmem, ⟨16, _⟩ => ⟨S1024x256, .f32⟩
  | .local _ .vmem, ⟨17, _⟩ => ⟨S1024x256, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v1 : Ref sig .tc := ⟨.hbm, 19, rfl⟩
abbrev main_v2 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_v3 : Ref sig .tc := ⟨.hbm, 24, rfl⟩
abbrev main_v4 : Ref sig .tc := ⟨.hbm, 25, rfl⟩
abbrev main_call2_v0 : Ref sig .tc := ⟨.hbm, 26, rfl⟩
abbrev main_call2_cst : Ref sig .tc := ⟨.hbm, 27, rfl⟩
abbrev main_call2_v1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12_0 : Ref sig .tc := ⟨.hbm, 36, rfl⟩
abbrev main_v12_1 : Ref sig .tc := ⟨.hbm, 37, rfl⟩
abbrev main_v13 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  shapeCasts_S4x2048x2048_S8192x2048 : S4x2048x2048.ShapeCasts S8192x2048
  bcast_S_S2048x2048 : S_.BroadcastsInDim S2048x2048 (![] : Fin 0 → Fin S2048x2048.rank)
  reducesTo_S2048x2048_S2048_d1 : S2048x2048.ReducesTo [1] S2048
  h_S_ : 0 < S_.numel
  shapeCasts_S2048_S1x2048 : S2048.ShapeCasts S1x2048
  reducesTo_S8192x2048_S8192_d1 : S8192x2048.ReducesTo [1] S8192
  shapeCasts_S8192_S8192x1 : S8192.ShapeCasts S8192x1
  bitsLt_bf16_f32 : FTy.bits .bf16 < FTy.bits .f32
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  broadcasts_S1024x1_S1024x256 : S1024x1.Broadcasts S1024x256
  inb_S1024x256_S1024x256_0_0 : ∀ a, (![0, 0] : Fin 2 → Nat) a + S1024x256.size a ≤ S1024x256.size a
  h_S1024x256 : 0 < S1024x256.numel
  shapeCasts_S8192x2048_S4x2048x2048 : S8192x2048.ShapeCasts S4x2048x2048
  dot_S1024x2048_S256x2048_S1024x256_1_1_0_0_n_n_wf : DotDims.WF S1024x2048 S256x2048 S1024x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x2048.size a
  hwx0_0 : ∀ i : grid0.Coords, EltTy.bits .bf16 = 32 ∨ (Rect.block (s := S8192x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .bf16 = 32 ∨ (Rect.block (s := S2048x2048) S256x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .bf16 = 32 ∨ (Rect.block (s := S2048x2048) S256x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1.size a ≤ S8192x1.size a
  hwx0_3 : ∀ i : grid0.Coords, EltTy.bits .f32 = 32 ∨ (Rect.block (s := S8192x1) S1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x2048.size a
  hwx0_4 : ∀ i : grid0.Coords, EltTy.bits .f32 = 32 ∨ (Rect.block (s := S1x2048) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x2048.size a
  hwx0_5 : ∀ i : grid0.Coords, EltTy.bits .f32 = 32 ∨ (Rect.block (s := S1x2048) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x2048.size a
  hwx0_6 : ∀ i : grid0.Coords, EltTy.bits .f32 = 32 ∨ (Rect.block (s := S1x2048) S1x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S8192x2048.size a
  hwx0_7 : ∀ i : grid0.Coords, EltTy.bits .f32 = 32 ∨ (Rect.block (s := S8192x2048) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S8192x2048.size a
  hwx0_8 : ∀ i : grid0.Coords, EltTy.bits .f32 = 32 ∨ (Rect.block (s := S8192x2048) S1024x256.size (cc0_transform_8 i) (hinb0_8 i)).WholeWords (EltTy.packing .f32)

variable [Facts₀]

def dot_S1024x2048_S256x2048_S1024x256_1_1_0_0_n_n : DotDims S1024x2048 S256x2048 S1024x256 where
  lhsContracting := [1]
  rhsContracting := [1]
  lhsNonContracting := [0]
  rhsNonContracting := [0]
  lhsBatch := []
  rhsBatch := []
  wf := dot_S1024x2048_S256x2048_S1024x256_1_1_0_0_n_n_wf

abbrev win0_0 : Pipeline.Window sig grid0 :=
  Pipeline.Window.ofSpec (Memref.whole main_v7) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S1024x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4x2048x2048 : Shape := ⟨3, ![4, 2048, 2048]⟩
abbrev S2048x2048 : Shape := ⟨2, ![2048, 2048]⟩
abbrev S2048 : Shape := ⟨1, ![2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 51
  | .vmem => 0
  | .smem => 0
  | _ => 0

abbrev bufTy : (tb : Table) → Fin (tcTables nBuf tb) → BufTy
  | .hbm, ⟨0, _⟩ => ⟨S4x2048x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S8192x2048, .f32⟩
  | .hbm, ⟨6, _⟩ => ⟨S_, .f32⟩
  | .hbm, ⟨7, _⟩ => ⟨S2048x2048, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S2048x2048, .i1⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S2048x2048, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x2048, .f32⟩
  | .hbm, ⟨20, _⟩ => ⟨S2048x2048, .f32⟩
  | .hbm, ⟨21, _⟩ => ⟨S8192x2048, .f32⟩
  | .hbm, ⟨22, _⟩ => ⟨S8192x2048, .f32⟩
  | .hbm, ⟨23, _⟩ => ⟨S_, .f32⟩
  | .hbm, ⟨24, _⟩ => ⟨S8192, .f32⟩
  | .hbm, ⟨25, _⟩ => ⟨S8192, .f32⟩
  | .hbm, ⟨26, _⟩ => ⟨S2048x2048, .f32⟩
  | .hbm, ⟨27, _⟩ => ⟨S_, .f32⟩
  | .hbm, ⟨28, _⟩ => ⟨S2048, .f32⟩
  | .hbm, ⟨29, _⟩ => ⟨S2048, .f32⟩
  | .hbm, ⟨30, _⟩ => ⟨S8192x1, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S1x2048, .f32⟩
  | .hbm, ⟨40, _⟩ => ⟨S8192x2048, .f32⟩
  | .hbm, ⟨41, _⟩ => ⟨S8192x2048, .f32⟩
  | .hbm, ⟨42, _⟩ => ⟨S_, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S1x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S4x2048x2048, .f32⟩
  | _, _ => ⟨S4x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_call1_v0 : Ref sig .tc := ⟨.hbm, 22, rfl⟩
abbrev main_call1_cst : Ref sig .tc := ⟨.hbm, 23, rfl⟩
abbrev main_call1_v1 : Ref sig .tc := ⟨.hbm, 24, rfl⟩
abbrev main_v4 : Ref sig .tc := ⟨.hbm, 25, rfl⟩
abbrev main_call2_v0 : Ref sig .tc := ⟨.hbm, 26, rfl⟩
abbrev main_call2_cst : Ref sig .tc := ⟨.hbm, 27, rfl⟩
abbrev main_call2_v1 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_call3_cst : Ref sig .tc := ⟨.hbm, 42, rfl⟩
abbrev main_call3_v0 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩

abbrev nD : Nat := 1
abbrev τ : Topo := Topo.v7x

variable {F : FTy → Type} [FloatOps F]

class Facts₀ : Prop where
  shapeCasts_S4x2048x2048_S8192x2048 : S4x2048x2048.ShapeCasts S8192x2048
  bcast_S_S2048x2048 : S_.BroadcastsInDim S2048x2048 (![] : Fin 0 → Fin S2048x2048.rank)
  reducesTo_S8192x2048_S8192_d1 : S8192x2048.ReducesTo [1] S8192
  h_S_ : 0 < S_.numel
  reducesTo_S2048x2048_S2048_d1 : S2048x2048.ReducesTo [1] S2048
  bcast_S8192_S8192x1_0 : S8192.BroadcastsInDim S8192x1 (![0] : Fin 1 → Fin S8192x1.rank)
  bcast_S2048_S1x2048_1 : S2048.BroadcastsInDim S1x2048 (![1] : Fin 1 → Fin S1x2048.rank)
  bcast_S8192x1_S8192x2048_0_1 : S8192x1.BroadcastsInDim S8192x2048 (![0, 1] : Fin 2 → Fin S8192x2048.rank)
  bcast_S1x2048_S8192x2048_0_1 : S1x2048.BroadcastsInDim S8192x2048 (![0, 1] : Fin 2 → Fin S8192x2048.rank)
  bcast_S_S8192x2048 : S_.BroadcastsInDim S8192x2048 (![] : Fin 0 → Fin S8192x2048.rank)
  shapeCasts_S8192x2048_S4x2048x2048 : S8192x2048.ShapeCasts S4x2048x2048
  dot_S8192x2048_S2048x2048_S8192x2048_1_1_0_0_n_n_wf : DotDims.WF S8192x2048 S2048x2048 S8192x2048 [1] [1] [0] [0] [] []

variable [Facts₀]

def dot_S8192x2048_S2048x2048_S8192x2048_1_1_0_0_n_n : DotDims S8192x2048 S2048x2048 S8192x2048 where
  lhsContracting := [1]
  rhsContracting := [1]
  lhsNonContracting := [0]
  rhsNonContracting := [0]
  lhsBatch := []
  rhsBatch := []
  wf := dot_S8192x2048_S2048x2048_S8192x2048_1_1_0_0_n_n_wf

class Facts : Prop extends Facts₀ where

variable [Facts]
-- ==== Proof.Formula.lean ====
/-
  The gated projection, entry by entry, on the extended reals.

  For a row x of the flattened input (2048 features), a key row and a weight row of the same length, the norms
  xn of the input row and kn of the key row, and per output column a gate and a bias:
    score = (sum over k of x k * key k) / max (xn * kn) eps          (a cosine similarity, the denominator floored)
    gated = ((sum over k of x k * mu k) + bias) * max (score - gate) 0
  eps and 0 are kept as the two binary words both programs carry; neither is ever evaluated.
  `scoresFn` and `maskedFn` are the two [8192, 2048] result arrays as whole functions of seven arrays: the flattened
  input, the keys, the weights, the two norm vectors, the gate and the bias.
-/
import Idealize.ShloMosaic.PureOps.Ideal
import Idealize.ShloMosaic.Lib.ValueIdx

noncomputable section

namespace Cert.CosineGate

open Idealize.ShloMosaic Idealize.ShloMosaic.ValueIdx

/-- The floor of the denominator: the word both programs carry for 1e-8. -/
abbrev epsWord : BitVec 32 := 0x322BCC77#32

/-- The cosine score of an input row against a key row, given the two norms. -/
def score (x key : Fin 2048 → EReal) (xn kn : EReal) : EReal :=
  Ideal.div (∑ k : Fin 2048, x k * key k) (max (xn * kn) (Ideal.ofBits .f32 epsWord))

/-- The projection of an input row on a weight row, plus the bias, scaled by the score's excess over the gate
    (nothing when the score is below the gate). -/
def gated (x mu : Fin 2048 → EReal) (bias gate s : EReal) : EReal :=
  ((∑ k : Fin 2048, x k * mu k) + bias) * max (s - gate) (Ideal.ofBits .f32 0x00000000#32)

/-- The score depends on its rows entry by entry. -/
theorem score_congr {x x' key key' : Fin 2048 → EReal} {xn xn' kn kn' : EReal} (hx : ∀ k, x k = x' k) (hkey : ∀ k, key k = key' k)
    (hxn : xn = xn') (hkn : kn = kn') : score x key xn kn = score x' key' xn' kn' := by
  rw [funext hx, funext hkey, hxn, hkn]

/-- So does the gated projection. -/
theorem gated_congr {x x' mu mu' : Fin 2048 → EReal} {bias bias' gate gate' s s' : EReal} (hx : ∀ k, x k = x' k) (hmu : ∀ k, mu k = mu' k)
    (hb : bias = bias') (hg : gate = gate') (hs : s = s') : gated x mu bias gate s = gated x' mu' bias' gate' s' := by
  rw [funext hx, funext hmu, hb, hg, hs]

/-- Row r of the input against row c of the keys. -/
def scoreRC (x : (⟨2, ![8192, 2048]⟩ : Shape).Idx → EReal) (keys : (⟨2, ![2048, 2048]⟩ : Shape).Idx → EReal)
    (xn : (⟨1, ![8192]⟩ : Shape).Idx → EReal) (kn : (⟨1, ![2048]⟩ : Shape).Idx → EReal) (r : Fin 8192) (c : Fin 2048) : EReal :=
  score (fun k => x (ix2 r k)) (fun k => keys (ix2 c k)) (xn (ix1 r)) (kn (ix1 c))

/-- The gated projection of row r of the input on row c of the weights. -/
def gatedRC (x : (⟨2, ![8192, 2048]⟩ : Shape).Idx → EReal) (keys mu : (⟨2, ![2048, 2048]⟩ : Shape).Idx → EReal)
    (xn : (⟨1, ![8192]⟩ : Shape).Idx → EReal) (kn gate bias : (⟨1, ![2048]⟩ : Shape).Idx → EReal) (r : Fin 8192) (c : Fin 2048) : EReal :=
  gated (fun k => x (ix2 r k)) (fun k => mu (ix2 c k)) (bias (ix1 c)) (gate (ix1 c)) (scoreRC x keys xn kn r c)

/-- The array of scores. -/
def scoresFn (x : (⟨2, ![8192, 2048]⟩ : Shape).Idx → EReal) (keys : (⟨2, ![2048, 2048]⟩ : Shape).Idx → EReal)
    (xn : (⟨1, ![8192]⟩ : Shape).Idx → EReal) (kn : (⟨1, ![2048]⟩ : Shape).Idx → EReal) :
    (⟨2, ![8192, 2048]⟩ : Shape).Idx → EReal :=
  fun i => scoreRC x keys xn kn (i 0) (i 1)

/-- The array of gated projections. -/
def maskedFn (x : (⟨2, ![8192, 2048]⟩ : Shape).Idx → EReal) (keys mu : (⟨2, ![2048, 2048]⟩ : Shape).Idx → EReal)
    (xn : (⟨1, ![8192]⟩ : Shape).Idx → EReal) (kn gate bias : (⟨1, ![2048]⟩ : Shape).Idx → EReal) :
    (⟨2, ![8192, 2048]⟩ : Shape).Idx → EReal :=
  fun i => gatedRC x keys mu xn kn gate bias (i 0) (i 1)

/-! ## The same two arrays from the seven arrays in the layout a blocked call is handed

  The norms and the per-column vectors arrive two-dimensional: the input norms as an [8192, 1] column, the key norms,
  the gate and the bias as [1, 2048] rows. -/

/-- The score array from the input array, the key array, the input-norm column and the key-norm row. -/
def scoresW (a0 : (⟨2, ![8192, 2048]⟩ : Shape).Idx → EReal) (a1 : (⟨2, ![2048, 2048]⟩ : Shape).Idx → EReal)
    (a3 : (⟨2, ![8192, 1]⟩ : Shape).Idx → EReal) (a4 : (⟨2, ![1, 2048]⟩ : Shape).Idx → EReal) :
    (⟨2, ![8192, 2048]⟩ : Shape).Idx → EReal :=
  fun i => score (fun k => a0 (ix2 (i 0) k)) (fun k => a1 (ix2 (i 1) k)) (a3 (ix2 (i 0) (0 : Fin 1))) (a4 (ix2 (0 : Fin 1) (i 1)))

/-- The gated product from all seven arrays (the weights, the gate row and the bias row besides). -/
def maskedW (a0 : (⟨2, ![8192, 2048]⟩ : Shape).Idx → EReal) (a1 a2 : (⟨2, ![2048, 2048]⟩ : Shape).Idx → EReal)
    (a3 : (⟨2, ![8192, 1]⟩ : Shape).Idx → EReal) (a4 a5 a6 : (⟨2, ![1, 2048]⟩ : Shape).Idx → EReal) :
    (⟨2, ![8192, 2048]⟩ : Shape).Idx → EReal :=
  fun i => gated (fun k => a0 (ix2 (i 0) k)) (fun k => a2 (ix2 (i 1) k)) (a6 (ix2 (0 : Fin 1) (i 1))) (a5 (ix2 (0 : Fin 1) (i 1)))
    (scoresW a0 a1 a3 a4 i)

end Cert.CosineGate

end
-- ==== Proof.LibKeepdims.lean ====
/-
  A column kept after a row reduction, read at an index given by coordinates.

  A sum over the last axis of an [a, b] array with the reduced axis KEPT is an [a] vector viewed as an [a, 1] column
  and then broadcast along the second axis. Two layout facts say what such a column reads:
  • an [a] vector cast to [a, 1] reads, at (p, 0), the vector at p (the two row-major positions coincide);
  • an [a, 1] column broadcast to [a, b] reads, at (p, c), the column at (p, 0), whatever c.
  Beside them: the index a one-axis reduction inserts its summed coordinate into, for a reduction of an [a, b]
  array over its last axis — the reduced index (p) with coordinate k inserted is (p, k).
-/
import Idealize.ShloMosaic.Lib.Pipeline.Value
import Idealize.ShloMosaic.Lib.ValueIdx
import Idealize.ShloMosaic.PureOps.Reduce

namespace Cert.Rbf.Keepdims

open Idealize.ShloMosaic Idealize.ShloMosaic.ValueIdx

variable {α : Type}

/-- An `[a]` vector cast to an `[a, 1]` column reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Rbf.Keepdims
-- ==== Proof.Payload.lean ====
/-
  What the kernel's body stores, read at one entry of a block.

  The body works on a block of 1024 input rows against a block of 256 key rows (and the same 256 weight rows), all
  2048 features wide. Its two matrix products contract the feature axis of both operands into a zero accumulator,
  so entry (p, q) of each is the plain sum over k of row p of the input block times row q of the other operand.
  The input norms arrive as a [1024, 1] column and the key norms, the gate and the bias as [1, 256] rows; broadcast
  to [1024, 256] they read, at (p, q), the column at p and the rows at q. So the stored scores are `score` of input
  row p, key row q and their norms, and the stored product is `gated` of input row p, weight row q, the bias and the
  gate at q, and that score.
-/
import proofs.«175366_j26817775796689_2_alg».proof.Proof.Gen.KernelIdeal.Skeleton
import proofs.«175366_j26817775796689_2_alg».proof.Proof.Formula
import proofs.«175366_j26817775796689_2_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Payload

open Cert.KernelIdeal Cert.KernelIdeal.Gen Idealize.ShloMosaic Idealize.ShloMosaic.ValueIdx Cert.CosineGate

/-- The left operand's row, at an entry of the product, is the entry's row. -/
theorem lhs_row (i : S1024x256.Idx) (u : dot_S1024x2048_S256x2048_S1024x256_1_1_0_0_n_n.contr.Idx) : (dot_S1024x2048_S256x2048_S1024x256_1_1_0_0_n_n.lhsIdx i u 0).val = (i 0).val := by
  unfold DotDims.lhsIdx
  rw [dif_neg (show ¬(0 : Fin S1024x2048.rank) ∈ dot_S1024x2048_S256x2048_S1024x256_1_1_0_0_n_n.lhsBatch by decide), dif_pos (show (0 : Fin S1024x2048.rank) ∈ dot_S1024x2048_S256x2048_S1024x256_1_1_0_0_n_n.lhsNonContracting by decide)]
  rfl

/-- The right operand's row, at an entry of the product, is the entry's column. -/
theorem rhs_row (i : S1024x256.Idx) (u : dot_S1024x2048_S256x2048_S1024x256_1_1_0_0_n_n.contr.Idx) : (dot_S1024x2048_S256x2048_S1024x256_1_1_0_0_n_n.rhsIdx i u 0).val = (i 1).val := by
  unfold DotDims.rhsIdx
  rw [dif_neg (show ¬(0 : Fin S256x2048.rank) ∈ dot_S1024x2048_S256x2048_S1024x256_1_1_0_0_n_n.rhsBatch by decide), dif_pos (show (0 : Fin S256x2048.rank) ∈ dot_S1024x2048_S256x2048_S1024x256_1_1_0_0_n_n.rhsNonContracting by decide)]
  rfl

/-- Entry (p, q) of the block product: rows p and q of the two operands, multiplied feature by feature and summed. -/
theorem blockDot_at (a : FVec Ideal S1024x2048 .bf16) (b : FVec Ideal S256x2048 .bf16) (p : Fin 1024) (q : Fin 256) :
    matmul dot_S1024x2048_S256x2048_S1024x256_1_1_0_0_n_n none a b (constant (F := Ideal) S1024x256 .f32 0x00000000#32) (ix2 p q)
      = ∑ k : Fin 2048, a (ix2 p k) * b (ix2 q k) := by
  simp only [matmul]
  rw [Ideal.matmul_constant_zero_apply, ← Equiv.sum_comp (ValueIdx.contrEquiv1 dot_S1024x2048_S256x2048_S1024x256_1_1_0_0_n_n 2048 rfl rfl).symm]
  refine Finset.sum_congr rfl fun k _ => ?_
  have hk := ValueIdx.contrEquiv1_symm_val dot_S1024x2048_S256x2048_S1024x256_1_1_0_0_n_n 2048 rfl rfl k
  have el : dot_S1024x2048_S256x2048_S1024x256_1_1_0_0_n_n.lhsIdx (ix2 p q) ((ValueIdx.contrEquiv1 dot_S1024x2048_S256x2048_S1024x256_1_1_0_0_n_n 2048 rfl rfl).symm k) = ix2 p k := funext fun ax => Fin.ext (by
    match ax with
    | ⟨0, _⟩ => exact lhs_row _ _
    | ⟨1, _⟩ => exact (dot_S1024x2048_S256x2048_S1024x256_1_1_0_0_n_n.lhsIdx_val_of_single rfl _ _).trans hk)
  have er : dot_S1024x2048_S256x2048_S1024x256_1_1_0_0_n_n.rhsIdx (ix2 p q) ((ValueIdx.contrEquiv1 dot_S1024x2048_S256x2048_S1024x256_1_1_0_0_n_n 2048 rfl rfl).symm k) = ix2 q k := funext fun ax => Fin.ext (by
    match ax with
    | ⟨0, _⟩ => exact rhs_row _ _
    | ⟨1, _⟩ => exact (dot_S1024x2048_S256x2048_S1024x256_1_1_0_0_n_n.rhsIdx_val_of_single rfl _ _).trans hk)
  rw [el, er]

/-- The stored scores at (p, q): the score of input row p against key row q, with the norm of each. -/
theorem scores_at (x0 : Vec Ideal S1024x2048 .bf16) (x1 : Vec Ideal S256x2048 .bf16) (x3 : Vec Ideal S1024x1 .f32) (x4 : Vec Ideal S1x256 .f32)
    (p : Fin 1024) (q : Fin 256) :
    k0_pay2 x0 x1 x3 x4 (ix2 p q)
      = score (fun k => x0 (ix2 p k)) (fun k => x1 (ix2 q k)) (x3 (ix2 p (0 : Fin 1))) (x4 (ix2 (0 : Fin 1) q)) := by
  unfold k0_pay2 k0_pay1 score
  dsimp only
  rw [shapeCast_self, shapeCast_self, shapeCast_self, shapeCast_self]
  refine (divf_apply _ _ _).trans ?_
  refine congrArg₂ Ideal.div (blockDot_at x0 x1 p q) ?_
  refine (maximumf_apply _ _ _).trans (congrArg₂ max ?_ rfl)
  refine (mulf_apply _ _ _).trans (congrArg₂ (· * ·) ?_ ?_)
  · exact Cert.Rbf.Keepdims.broadcastTo_a1_ab_apply x3 _ p q
  · exact broadcastTo_1b_ab_apply x4 _ p q

/-- The stored product at (p, q): the gated projection of input row p on weight row q. -/
theorem masked_at (x0 : Vec Ideal S1024x2048 .bf16) (x1 x2 : Vec Ideal S256x2048 .bf16) (x3 : Vec Ideal S1024x1 .f32)
    (x4 x5 x6 : Vec Ideal S1x256 .f32) (p : Fin 1024) (q : Fin 256) :
    k0_pay3 x0 x1 x2 x3 x4 x5 x6 (ix2 p q)
      = gated (fun k => x0 (ix2 p k)) (fun k => x2 (ix2 q k)) (x6 (ix2 (0 : Fin 1) q)) (x5 (ix2 (0 : Fin 1) q))
          (score (fun k => x0 (ix2 p k)) (fun k => x1 (ix2 q k)) (x3 (ix2 p (0 : Fin 1))) (x4 (ix2 (0 : Fin 1) q))) := by
  unfold k0_pay3 k0_pay1 gated
  dsimp only
  rw [shapeCast_self, shapeCast_self, shapeCast_self, shapeCast_self]
  refine (mulf_apply _ _ _).trans (congrArg₂ (· * ·) ?_ ?_)
  · refine (addf_apply _ _ _).trans (congrArg₂ (· + ·) (blockDot_at x0 x2 p q) ?_)
    exact broadcastTo_1b_ab_apply x6 _ p q
  · refine (maximumf_apply _ _ _).trans (congrArg₂ max ?_ rfl)
    refine (subf_apply _ _ _).trans (congrArg₂ (· - ·) (scores_at x0 x1 x3 x4 p q) ?_)
    exact broadcastTo_1b_ab_apply x5 _ p q

end Cert.KernelIdeal.Payload

end
-- ==== Proof.KernelArrays.lean ====
/-
  From blocks to whole arrays: what the two result arrays of the call hold after all 64 grid points.

  The grid is 8 by 8. At point (i, j) the body sees rows 1024 i .. 1024 i + 1023 of the input array and of the
  input-norm column, and rows 256 j .. 256 j + 255 of the key array and of the weight array, and columns 256 j ..
  256 j + 255 of the key-norm, gate and bias rows; it writes block (i, j), 1024 by 256, of both results. So entry
  (p, q) of the block written at a point is entry (1024 i + p, 256 j + q) of one function of the seven whole arrays
  the call was given: `scoresW` for the scores and `maskedW` for the gated product. The 64 blocks tile the
  [8192, 2048] results (the block that holds entry (r, c) is (r / 1024, c / 256)), so each result array ends as that
  function.
-/
import proofs.«175366_j26817775796689_2_alg».proof.Proof.Gen.KernelIdeal.Frame
import proofs.«175366_j26817775796689_2_alg».proof.Proof.Payload
import Idealize.ShloMosaic.Lib.Pipeline.Value

noncomputable section

namespace Cert.KernelIdeal.Arrays

open Cert.KernelIdeal Cert.KernelIdeal.Gen Idealize.ShloMosaic Idealize.ShloMosaic.TcCoe Idealize.SL.Sem
open Idealize.ShloMosaic.ValueIdx Cert.CosineGate
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Which block of each array a grid point sees, decided over the 64 points: the input array and the input-norm
    column move with the result's block row and stay at block column 0; the key and weight arrays take the result's
    block COLUMN as their block row; the three rows stay at block row 0 and move with the result's block column; both
    results move together, over 8 by 8 blocks. -/
theorem blocks_at : ∀ t : Fin cfg0.N,
    win0_0.index t (0 : Fin 2) = win0_8.index t (0 : Fin 2) ∧ win0_0.index t (1 : Fin 2) = 0
    ∧ win0_1.index t (0 : Fin 2) = win0_8.index t (1 : Fin 2) ∧ win0_1.index t (1 : Fin 2) = 0
    ∧ win0_2.index t (0 : Fin 2) = win0_8.index t (1 : Fin 2) ∧ win0_2.index t (1 : Fin 2) = 0
    ∧ win0_3.index t (0 : Fin 2) = win0_8.index t (0 : Fin 2) ∧ win0_3.index t (1 : Fin 2) = 0
    ∧ win0_4.index t (0 : Fin 2) = 0 ∧ win0_4.index t (1 : Fin 2) = win0_8.index t (1 : Fin 2)
    ∧ win0_5.index t (0 : Fin 2) = 0 ∧ win0_5.index t (1 : Fin 2) = win0_8.index t (1 : Fin 2)
    ∧ win0_6.index t (0 : Fin 2) = 0 ∧ win0_6.index t (1 : Fin 2) = win0_8.index t (1 : Fin 2)
    ∧ win0_7.index t (0 : Fin 2) = win0_8.index t (0 : Fin 2) ∧ win0_7.index t (1 : Fin 2) = win0_8.index t (1 : Fin 2)
    ∧ win0_8.index t (0 : Fin 2) ≤ 7 ∧ win0_8.index t (1 : Fin 2) ≤ 7 :=
  (by decide +kernel : ∀ t : Fin grid0.N, _)

/-- Every one of the 8 by 8 blocks is some point's. -/
theorem block_of : ∀ (q0 : Fin 8) (q1 : Fin 8), ∃ t : Fin cfg0.N, win0_8.index t = ![q0.val, q1.val] :=
  (by decide +kernel : ∀ (q0 : Fin 8) (q1 : Fin 8), ∃ t : Fin grid0.N, win0_8.index t = ![q0.val, q1.val])

/-! ## One block, for any seven arrays -/

/-- The body's scores on a point's blocks of ANY four arrays are, entry by entry, `scoresW` of those arrays at the
    entry's place in the result: the blocks' rows and columns are the result block's, shifted as `blocks_at` says. -/
theorem block_scores (A0 : S8192x2048.Idx → EReal) (A1 : S2048x2048.Idx → EReal) (A3 : S8192x1.Idx → EReal) (A4 : S1x2048.Idx → EReal)
    (t : Fin cfg0.N) (p : Fin 1024) (q : Fin 256) :
    k0_pay2 (((cfg0.win 0).blk t).view.read (Elt Ideal) A0) (((cfg0.win 1).blk t).view.read (Elt Ideal) A1) (((cfg0.win 3).blk t).view.read (Elt Ideal) A3) (((cfg0.win 4).blk t).view.read (Elt Ideal) A4) (ix2 p q)
      = scoresW A0 A1 A3 A4 (((cfg0.win 8).blk t).view.emb (ix2 p q)) := by
  obtain ⟨e00, e01, e10, e11, e20, e21, e30, e31, e40, e41, e50, e51, e60, e61, e70, e71, b0, b1⟩ := blocks_at t
  refine (Payload.scores_at (((cfg0.win 0).blk t).view.read (Elt Ideal) A0) (((cfg0.win 1).blk t).view.read (Elt Ideal) A1) (((cfg0.win 3).blk t).view.read (Elt Ideal) A3) (((cfg0.win 4).blk t).view.read (Elt Ideal) A4) p q).trans ?_
  unfold scoresW
  refine score_congr (fun k => ?_) (fun k => ?_) ?_ ?_
  · show A0 (((cfg0.win 0).blk t).view.emb (ix2 p k)) = A0 (ix2 ((((cfg0.win 8).blk t).view.emb (ix2 p q)) 0) k)
    refine congrArg A0 (funext fun a => Fin.ext ?_)
    match a with
    | ⟨0, _⟩ => show win0_0.index t (0 : Fin 2) * 1024 + 1 * p.val = win0_8.index t (0 : Fin 2) * 1024 + 1 * p.val; omega
    | ⟨1, _⟩ => show win0_0.index t (1 : Fin 2) * 2048 + 1 * k.val = k.val; omega
  · show A1 (((cfg0.win 1).blk t).view.emb (ix2 q k)) = A1 (ix2 ((((cfg0.win 8).blk t).view.emb (ix2 p q)) 1) k)
    refine congrArg A1 (funext fun a => Fin.ext ?_)
    match a with
    | ⟨0, _⟩ => show win0_1.index t (0 : Fin 2) * 256 + 1 * q.val = win0_8.index t (1 : Fin 2) * 256 + 1 * q.val; omega
    | ⟨1, _⟩ => show win0_1.index t (1 : Fin 2) * 2048 + 1 * k.val = k.val; omega
  · show A3 (((cfg0.win 3).blk t).view.emb (ix2 p (0 : Fin 1))) = A3 (ix2 ((((cfg0.win 8).blk t).view.emb (ix2 p q)) 0) (0 : Fin 1))
    refine congrArg A3 (funext fun a => Fin.ext ?_)
    match a with
    | ⟨0, _⟩ => show win0_3.index t (0 : Fin 2) * 1024 + 1 * p.val = win0_8.index t (0 : Fin 2) * 1024 + 1 * p.val; omega
    | ⟨1, _⟩ => show win0_3.index t (1 : Fin 2) * 1 + 1 * 0 = 0; omega
  · show A4 (((cfg0.win 4).blk t).view.emb (ix2 (0 : Fin 1) q)) = A4 (ix2 (0 : Fin 1) ((((cfg0.win 8).blk t).view.emb (ix2 p q)) 1))
    refine congrArg A4 (funext fun a => Fin.ext ?_)
    match a with
    | ⟨0, _⟩ => show win0_4.index t (0 : Fin 2) * 1 + 1 * 0 = 0; omega
    | ⟨1, _⟩ => show win0_4.index t (1 : Fin 2) * 256 + 1 * q.val = win0_8.index t (1 : Fin 2) * 256 + 1 * q.val; omega

/-- The same for the gated product, on a point's blocks of any seven arrays. -/
theorem block_masked (A0 : S8192x2048.Idx → EReal) (A1 A2 : S2048x2048.Idx → EReal) (A3 : S8192x1.Idx → EReal) (A4 A5 A6 : S1x2048.Idx → EReal)
    (t : Fin cfg0.N) (p : Fin 1024) (q : Fin 256) :
    k0_pay3 (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) (ix2 p q)
      = maskedW A0 A1 A2 A3 A4 A5 A6 (((cfg0.win 8).blk t).view.emb (ix2 p q)) := by
  obtain ⟨e00, e01, e10, e11, e20, e21, e30, e31, e40, e41, e50, e51, e60, e61, e70, e71, b0, b1⟩ := blocks_at t
  refine (Payload.masked_at (((cfg0.win 0).blk t).view.read (Elt Ideal) A0) (((cfg0.win 1).blk t).view.read (Elt Ideal) A1) (((cfg0.win 2).blk t).view.read (Elt Ideal) A2) (((cfg0.win 3).blk t).view.read (Elt Ideal) A3) (((cfg0.win 4).blk t).view.read (Elt Ideal) A4) (((cfg0.win 5).blk t).view.read (Elt Ideal) A5) (((cfg0.win 6).blk t).view.read (Elt Ideal) A6) p q).trans ?_
  unfold maskedW
  refine gated_congr (fun k => ?_) (fun k => ?_) ?_ ?_ ?_
  · show A0 (((cfg0.win 0).blk t).view.emb (ix2 p k)) = A0 (ix2 ((((cfg0.win 8).blk t).view.emb (ix2 p q)) 0) k)
    refine congrArg A0 (funext fun a => Fin.ext ?_)
    match a with
    | ⟨0, _⟩ => show win0_0.index t (0 : Fin 2) * 1024 + 1 * p.val = win0_8.index t (0 : Fin 2) * 1024 + 1 * p.val; omega
    | ⟨1, _⟩ => show win0_0.index t (1 : Fin 2) * 2048 + 1 * k.val = k.val; omega
  · show A2 (((cfg0.win 2).blk t).view.emb (ix2 q k)) = A2 (ix2 ((((cfg0.win 8).blk t).view.emb (ix2 p q)) 1) k)
    refine congrArg A2 (funext fun a => Fin.ext ?_)
    match a with
    | ⟨0, _⟩ => show win0_2.index t (0 : Fin 2) * 256 + 1 * q.val = win0_8.index t (1 : Fin 2) * 256 + 1 * q.val; omega
    | ⟨1, _⟩ => show win0_2.index t (1 : Fin 2) * 2048 + 1 * k.val = k.val; omega
  · show A6 (((cfg0.win 6).blk t).view.emb (ix2 (0 : Fin 1) q)) = A6 (ix2 (0 : Fin 1) ((((cfg0.win 8).blk t).view.emb (ix2 p q)) 1))
    refine congrArg A6 (funext fun a => Fin.ext ?_)
    match a with
    | ⟨0, _⟩ => show win0_6.index t (0 : Fin 2) * 1 + 1 * 0 = 0; omega
    | ⟨1, _⟩ => show win0_6.index t (1 : Fin 2) * 256 + 1 * q.val = win0_8.index t (1 : Fin 2) * 256 + 1 * q.val; omega
  · show A5 (((cfg0.win 5).blk t).view.emb (ix2 (0 : Fin 1) q)) = A5 (ix2 (0 : Fin 1) ((((cfg0.win 8).blk t).view.emb (ix2 p q)) 1))
    refine congrArg A5 (funext fun a => Fin.ext ?_)
    match a with
    | ⟨0, _⟩ => show win0_5.index t (0 : Fin 2) * 1 + 1 * 0 = 0; omega
    | ⟨1, _⟩ => show win0_5.index t (1 : Fin 2) * 256 + 1 * q.val = win0_8.index t (1 : Fin 2) * 256 + 1 * q.val; omega
  · exact (Payload.scores_at (((cfg0.win 0).blk t).view.read (Elt Ideal) A0) (((cfg0.win 1).blk t).view.read (Elt Ideal) A1) (((cfg0.win 3).blk t).view.read (Elt Ideal) A3) (((cfg0.win 4).blk t).view.read (Elt Ideal) A4) p q).symm.trans (block_scores A0 A1 A3 A4 t p q)

/-! ## The cover: the 64 blocks tile a result array (both results share the index map) -/

/-- An entry of the score array is in a point's block iff each coordinate is in the block's range. -/
theorem mem_block8 (t : Fin cfg0.N) (i : S8192x2048.Idx) :
    i ∈ ((cfg0.win 8).blk t).view.set ↔ ∀ a : Fin 2, win0_8.index t a * S1024x256.size a ≤ (i a).val ∧ (i a).val < win0_8.index t a * S1024x256.size a + S1024x256.size a := by
  show i ∈ ((View.whole main_v12_1).slice (win0_8.rect t)).set ↔ _
  rw [View.set_slice_whole, Rect.mem_set_unit]
  exact Iff.rfl

/-- The same for the product array. -/
theorem mem_block7 (t : Fin cfg0.N) (i : S8192x2048.Idx) :
    i ∈ ((cfg0.win 7).blk t).view.set ↔ ∀ a : Fin 2, win0_7.index t a * S1024x256.size a ≤ (i a).val ∧ (i a).val < win0_7.index t a * S1024x256.size a + S1024x256.size a := by
  show i ∈ ((View.whole main_v12_0).slice (win0_7.rect t)).set ↔ _
  rw [View.set_slice_whole, Rect.mem_set_unit]
  exact Iff.rfl

/-- Entry (r, c) of the score array is written by the point whose block is (r / 1024, c / 256). -/
theorem cover8 (i : S8192x2048.Idx) : ∃ t : Fin cfg0.N, (cfg0.win 8).flush t = true ∧ i ∈ ((cfg0.win 8).blk t).view.set := by
  have hi0 : (i 0).val < 8192 := (i 0).isLt
  have hi1 : (i 1).val < 2048 := (i 1).isLt
  obtain ⟨t, ht⟩ := block_of ⟨(i 0).val / 1024, by omega⟩ ⟨(i 1).val / 256, by omega⟩
  have q0 : win0_8.index t (0 : Fin 2) = (i 0).val / 1024 := congrFun ht 0
  have q1 : win0_8.index t (1 : Fin 2) = (i 1).val / 256 := congrFun ht 1
  refine ⟨t, flush0_8 t, ?_⟩
  rw [mem_block8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 256 ≤ (i 1).val ∧ (i 1).val < win0_8.index t (1 : Fin 2) * 256 + 256; omega

/-- And so is entry (r, c) of the product array. -/
theorem cover7 (i : S8192x2048.Idx) : ∃ t : Fin cfg0.N, (cfg0.win 7).flush t = true ∧ i ∈ ((cfg0.win 7).blk t).view.set := by
  have hi0 : (i 0).val < 8192 := (i 0).isLt
  have hi1 : (i 1).val < 2048 := (i 1).isLt
  obtain ⟨t, ht⟩ := block_of ⟨(i 0).val / 1024, by omega⟩ ⟨(i 1).val / 256, by omega⟩
  obtain ⟨e00, e01, e10, e11, e20, e21, e30, e31, e40, e41, e50, e51, e60, e61, e70, e71, b0, b1⟩ := blocks_at t
  have q0 : win0_8.index t (0 : Fin 2) = (i 0).val / 1024 := congrFun ht 0
  have q1 : win0_8.index t (1 : Fin 2) = (i 1).val / 256 := congrFun ht 1
  refine ⟨t, flush0_7 t, ?_⟩
  rw [mem_block7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 256 ≤ (i 1).val ∧ (i 1).val < win0_7.index t (1 : Fin 2) * 256 + 256; omega

/-! ## The two result arrays after the run -/

/-- What a point writes back to the score array is its block of `scoresW` of the arrays the call was given. -/
theorem flushed_scores (c : Dev nD) (t : Fin cfg0.N) :
    (dats m 0 c).flushed 8 t = ((cfg0.win 8).blk t).view.read (Elt Ideal)
      (scoresW (V m c main_v7) (V m c main_v8) (V m c main_v6) (V m c main_v4)) := by
  show (cfg0.win 8).cut (grid0.coords t) ((dats m 0 c).after 8 t) = _
  rw [after0_8]
  unfold out0_8
  rw [View.canon_unit_zero origin]
  simp only [View.ld_unit_zero (S := S1024x2048) origin, View.ld_unit_zero (S := S256x2048) origin,
    View.ld_unit_zero (S := S1024x1) origin, View.ld_unit_zero (S := S1x256) origin]
  funext j
  obtain ⟨p, q, rfl⟩ : ∃ (p : Fin 1024) (q : Fin 256), j = ix2 p q := ⟨j 0, j 1, eq_ix2 j⟩
  show k0_pay2 (iblk m c 0 t) (iblk m c 1 t) (iblk m c 3 t) (iblk m c 4 t) (ix2 p q)
    = scoresW (V m c main_v7) (V m c main_v8) (V m c main_v6) (V m c main_v4) (((cfg0.win 8).blk t).view.emb (ix2 p q))
  exact block_scores (V m c main_v7) (V m c main_v8) (V m c main_v6) (V m c main_v4) t p q

/-- What a point writes back to the product array is its block of `maskedW` of the arrays the call was given. -/
theorem flushed_masked (c : Dev nD) (t : Fin cfg0.N) :
    (dats m 0 c).flushed 7 t = ((cfg0.win 7).blk t).view.read (Elt Ideal)
      (maskedW (V m c main_v7) (V m c main_v8) (V m c main_v9) (V m c main_v6) (V m c main_v4) (V m c main_v10) (V m c main_v11)) := by
  show (cfg0.win 7).cut (grid0.coords t) ((dats m 0 c).after 7 t) = _
  rw [after0_7]
  unfold out0_7
  rw [View.canon_unit_zero origin]
  simp only [View.ld_unit_zero (S := S1024x2048) origin, View.ld_unit_zero (S := S256x2048) origin,
    View.ld_unit_zero (S := S1024x1) origin, View.ld_unit_zero (S := S1x256) origin]
  obtain ⟨e00, e01, e10, e11, e20, e21, e30, e31, e40, e41, e50, e51, e60, e61, e70, e71, b0, b1⟩ := blocks_at t
  funext j
  obtain ⟨p, q, rfl⟩ : ∃ (p : Fin 1024) (q : Fin 256), j = ix2 p q := ⟨j 0, j 1, eq_ix2 j⟩
  have hemb : ((cfg0.win 7).blk t).view.emb (ix2 p q) = ((cfg0.win 8).blk t).view.emb (ix2 p q) := by
    funext a; apply Fin.ext
    match a with
    | ⟨0, _⟩ => show win0_7.index t (0 : Fin 2) * 1024 + 1 * p.val = win0_8.index t (0 : Fin 2) * 1024 + 1 * p.val; omega
    | ⟨1, _⟩ => show win0_7.index t (1 : Fin 2) * 256 + 1 * q.val = win0_8.index t (1 : Fin 2) * 256 + 1 * q.val; omega
  show k0_pay3 (iblk m c 0 t) (iblk m c 1 t) (iblk m c 2 t) (iblk m c 3 t) (iblk m c 4 t) (iblk m c 5 t) (iblk m c 6 t) (ix2 p q)
    = maskedW (V m c main_v7) (V m c main_v8) (V m c main_v9) (V m c main_v6) (V m c main_v4) (V m c main_v10) (V m c main_v11) (((cfg0.win 7).blk t).view.emb (ix2 p q))
  rw [hemb]
  exact block_masked (V m c main_v7) (V m c main_v8) (V m c main_v9) (V m c main_v6) (V m c main_v4) (V m c main_v10) (V m c main_v11) t p q

/-- THE SCORE ARRAY after the run. -/
theorem final_scores (c : Dev nD) :
    (dats m 0 c).arrAt 8 cfg0.N = scoresW (V m c main_v7) (V m c main_v8) (V m c main_v6) (V m c main_v4) :=
  (dats m 0 c).arrAt_eq_of_cover 8 _ (fun t _ => flushed_scores m c t) cover8

/-- THE PRODUCT ARRAY after the run. -/
theorem final_masked (c : Dev nD) :
    (dats m 0 c).arrAt 7 cfg0.N = maskedW (V m c main_v7) (V m c main_v8) (V m c main_v9) (V m c main_v6) (V m c main_v4) (V m c main_v10) (V m c main_v11) :=
  (dats m 0 c).arrAt_eq_of_cover 7 _ (fun t _ => flushed_masked m c t) cover7

end Cert.KernelIdeal.Arrays

end
-- ==== Proof.KernelHost.lean ====
/-
  What the blocked call is handed, and what is done with its first result afterwards.

  Before the call the program flattens the input to [8192, 2048]; forms the keys — the weights times the softplus of
  the spread parameter —; takes the norm of every key row and of every input row (the square root of the row's sum
  of squares); narrows the flattened input, the keys and the weights to a shorter float format; and views the two
  norm vectors, the gate and the bias as an [8192, 1] column and [1, 2048] rows. These are, operation for operation,
  the stages the reference computes (its flattened input, its keys, its two norm vectors), so each of the call's
  seven arrays is stated here as a re-laying of the reference's stage of the same argument arrays: the softplus and the
  two norms are carried as those stages' names and never opened.
  After the call the program reshapes the gated product back to [4, 2048, 2048].
-/
import proofs.«175366_j26817775796689_2_alg».proof.Proof.Gen.KernelIdeal.Frame
import proofs.«175366_j26817775796689_2_alg».proof.Proof.Gen.ReferenceIdeal.Read
import Idealize.ShloMosaic.Lib.StableHlo.Run
import Idealize.ShloMosaic.Lib.Pipeline.Value

noncomputable section

namespace Cert.KernelIdeal.Host

open Cert.KernelIdeal Cert.KernelIdeal.Gen Idealize.ShloMosaic Idealize.ShloMosaic.TcCoe Idealize.SL.Sem Idealize.ShloMosaic.StableHlo
open Idealize.ShloMosaic.Pipeline (Dat)

variable (m : (ℓ : Loc nD τ sig) → Buf (Elt Ideal) ℓ)

/-- The call's input array: the flattened input, narrowed. -/
theorem given_input (c : Dev nD) : V m c main_v7
    = (truncf .bf16 (Cert.ReferenceIdeal.Read.val_main_v0 (F := Ideal) (m ((c : Thread nD τ).loc main_arg0))) bitsLt_bf16_f32 : FVec Ideal S8192x2048 .bf16) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The call's key array: the keys, narrowed. -/
theorem given_keys (c : Dev nD) : V m c main_v8
    = (truncf .bf16 (Cert.ReferenceIdeal.Read.val_main_v2 (F := Ideal) (m ((c : Thread nD τ).loc main_arg1)) (m ((c : Thread nD τ).loc main_arg2))) bitsLt_bf16_f32 : FVec Ideal S2048x2048 .bf16) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The call's weight array: the weights, narrowed. -/
theorem given_weights (c : Dev nD) : V m c main_v9
    = (truncf .bf16 ((m ((c : Thread nD τ).loc main_arg1)) : FVec Ideal S2048x2048 .f32) bitsLt_bf16_f32 : FVec Ideal S2048x2048 .bf16) := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp

/-- The call's input-norm column: the norms of the input rows, as a column. -/
theorem given_inputNorms (c : Dev nD) : (V m c main_v6 : (⟨S8192x1, .f32⟩ : BufTy).Contents (Elt Ideal))
    = shapeCast S8192x1 (Cert.ReferenceIdeal.Read.val_main_v4 (F := Ideal) (m ((c : Thread nD τ).loc main_arg0))) shapeCasts_S8192_S8192x1 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The call's key-norm row: the norms of the key rows, as a row. -/
theorem given_keyNorms (c : Dev nD) : (V m c main_v4 : (⟨S1x2048, .f32⟩ : BufTy).Contents (Elt Ideal))
    = shapeCast S1x2048 (Cert.ReferenceIdeal.Read.val_main_v5 (F := Ideal) (m ((c : Thread nD τ).loc main_arg1)) (m ((c : Thread nD τ).loc main_arg2))) shapeCasts_S2048_S1x2048 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The call's gate row. -/
theorem given_gate (c : Dev nD) : (V m c main_v10 : (⟨S1x2048, .f32⟩ : BufTy).Contents (Elt Ideal))
    = shapeCast S1x2048 (m ((c : Thread nD τ).loc main_arg3)) shapeCasts_S2048_S1x2048 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- The call's bias row. -/
theorem given_bias (c : Dev nD) : (V m c main_v11 : (⟨S1x2048, .f32⟩ : BufTy).Contents (Elt Ideal))
    = shapeCast S1x2048 (m ((c : Thread nD τ).loc main_arg4)) shapeCasts_S2048_S1x2048 := by
  dsimp only [Gen.V, Gen.V0]
  simp only [Gen.hostOps0, Gen.hostOps0_1, Gen.hostOps0_2, Gen.hostOps0_3, Gen.hostOps0_4, Gen.hostOps0_5, Gen.hostOps0_6,
    List.flatten_cons, List.flatten_nil, List.append_nil, List.cons_append, List.nil_append]
  after_results_simp
  rfl

/-- After the call: the first result of the program is the call's first result array, reshaped. -/
theorem reshaped (c : Dev nD) :
    Pipeline.afterTail₀ cfgs (dats m) 0 (V0 m) [hostOps1] c main_v13
      = shapeCast S4x2048x2048 ((dats m 0 c).arrAt 7 cfg0.N) shapeCasts_S8192x2048_S4x2048x2048 := by
  unfold Pipeline.afterTail₀
  show StableHlo.after hostOps1 _ (Proc.devRef .tc main_v13) = _
  after_results
  exact congrArg (fun a => shapeCast S4x2048x2048 a shapeCasts_S8192x2048_S4x2048x2048)
    (Pipeline.withArrays_arr spec0 launch0.win.arr_inj c _ _ 7)

end Cert.KernelIdeal.Host

end
-- ==== Proof.Layout.lean ====
/-
  The blocked call's seven arrays are the stages, re-laid: the two forms of the result arrays agree.

  The call is handed the flattened input, the keys and the weights narrowed to a shorter float format (on the
  extended reals a change of format changes nothing), the input norms as an [8192] vector viewed as an [8192, 1]
  column, and the key norms, the gate and the bias as [2048] vectors viewed as [1, 2048] rows. A vector viewed as a
  column reads at (r, 0) the vector at r, and viewed as a row reads at (0, c) the vector at c. So `scoresW` and
  `maskedW` of those seven arrays are `scoresFn` and `maskedFn` of the stages themselves.
-/
import proofs.«175366_j26817775796689_2_alg».proof.Proof.Formula
import proofs.«175366_j26817775796689_2_alg».proof.Proof.LibKeepdims
import Idealize.ShloMosaic.Lib.ValueLayout
import Idealize.ShloMosaic.Lib.ValueIdx

noncomputable section

namespace Cert.CosineGate

open Idealize.ShloMosaic Idealize.ShloMosaic.ValueIdx

variable (x : FVec Ideal ⟨2, ![8192, 2048]⟩ .f32) (keys mu : FVec Ideal ⟨2, ![2048, 2048]⟩ .f32)
  (xn : FVec Ideal ⟨1, ![8192]⟩ .f32) (kn gate bias : FVec Ideal ⟨1, ![2048]⟩ .f32)
  (hb : FTy.bits .bf16 < FTy.bits .f32)
  (hcol : (⟨1, ![8192]⟩ : Shape).ShapeCasts ⟨2, ![8192, 1]⟩) (hrow : (⟨1, ![2048]⟩ : Shape).ShapeCasts ⟨2, ![1, 2048]⟩)

/-- The scores of the re-laid arrays are the scores of the stages. -/
theorem scoresW_stages :
    scoresW (truncf .bf16 x hb) (truncf .bf16 keys hb) (shapeCast ⟨2, ![8192, 1]⟩ xn hcol) (shapeCast ⟨2, ![1, 2048]⟩ kn hrow)
      = scoresFn x keys xn kn := by
  funext i
  obtain ⟨r, c, rfl⟩ : ∃ (r : Fin 8192) (c : Fin 2048), i = ix2 r c := ⟨i 0, i 1, eq_ix2 i⟩
  unfold scoresW scoresFn scoreRC
  refine score_congr (fun k => rfl) (fun k => rfl) ?_ ?_
  · exact Cert.Rbf.Keepdims.shapeCast_a_a1_apply xn hcol r (0 : Fin 1)
  · exact shapeCast_a_1a_apply kn hrow (0 : Fin 1) c

/-- The gated products of the re-laid arrays are the gated products of the stages. -/
theorem maskedW_stages :
    maskedW (truncf .bf16 x hb) (truncf .bf16 keys hb) (truncf .bf16 mu hb) (shapeCast ⟨2, ![8192, 1]⟩ xn hcol)
        (shapeCast ⟨2, ![1, 2048]⟩ kn hrow) (shapeCast ⟨2, ![1, 2048]⟩ gate hrow) (shapeCast ⟨2, ![1, 2048]⟩ bias hrow)
      = maskedFn x keys mu xn kn gate bias := by
  funext i
  obtain ⟨r, c, rfl⟩ : ∃ (r : Fin 8192) (c : Fin 2048), i = ix2 r c := ⟨i 0, i 1, eq_ix2 i⟩
  unfold maskedW maskedFn gatedRC
  refine gated_congr (fun k => rfl) (fun k => rfl) ?_ ?_ ?_
  · exact shapeCast_a_1a_apply bias hrow (0 : Fin 1) c
  · exact shapeCast_a_1a_apply gate hrow (0 : Fin 1) c
  · exact congrFun (scoresW_stages x keys xn kn hb hcol hrow) (ix2 r c)

end Cert.CosineGate

end
-- ==== Proof.KernelValue.lean ====
/-
  The kernel program's run, with its three results named.

  After the blocked call its two result arrays are `scoresW` and `maskedW` of the seven arrays it was handed; those
  arrays are the stages re-laid; and the re-laid forms agree with the stage forms. So the program ends with its
  second result at `scoresFn` and its third at `maskedFn` of the stages of its own argument arrays, and its first
  at that gated product reshaped to [4, 2048, 2048]; the argument arrays are as launched.
-/
import proofs.«175366_j26817775796689_2_alg».proof.Proof.KernelArrays
import proofs.«175366_j26817775796689_2_alg».proof.Proof.KernelHost
import proofs.«175366_j26817775796689_2_alg».proof.Proof.Layout

noncomputable section

namespace Cert.KernelIdeal.RunValue

open Cert.KernelIdeal Cert.KernelIdeal.Gen Idealize.ShloMosaic Idealize.ShloMosaic.TcCoe Idealize.SL.Sem
open Cert.CosineGate
open Idealize.ShloMosaic.Pipeline (Dat)

variable (m : (ℓ : Loc nD τ sig) → Buf (Elt Ideal) ℓ) (ρ : Dev nD → PrngReg)

/-- The score array after the run, over the stages. -/
theorem scores_final (c : Dev nD) : (dats m 0 c).arrAt 8 cfg0.N = scoresFn (Cert.ReferenceIdeal.Read.val_main_v0 (F := Ideal) (m ((c : Thread nD τ).loc main_arg0))) (Cert.ReferenceIdeal.Read.val_main_v2 (F := Ideal) (m ((c : Thread nD τ).loc main_arg1)) (m ((c : Thread nD τ).loc main_arg2))) (Cert.ReferenceIdeal.Read.val_main_v4 (F := Ideal) (m ((c : Thread nD τ).loc main_arg0))) (Cert.ReferenceIdeal.Read.val_main_v5 (F := Ideal) (m ((c : Thread nD τ).loc main_arg1)) (m ((c : Thread nD τ).loc main_arg2))) := by
  rw [Arrays.final_scores, Host.given_input, Host.given_keys, Host.given_inputNorms, Host.given_keyNorms]
  exact scoresW_stages _ _ _ _ _ _ _

/-- The product array after the run, over the stages. -/
theorem masked_final (c : Dev nD) : (dats m 0 c).arrAt 7 cfg0.N = maskedFn (Cert.ReferenceIdeal.Read.val_main_v0 (F := Ideal) (m ((c : Thread nD τ).loc main_arg0))) (Cert.ReferenceIdeal.Read.val_main_v2 (F := Ideal) (m ((c : Thread nD τ).loc main_arg1)) (m ((c : Thread nD τ).loc main_arg2))) (m ((c : Thread nD τ).loc main_arg1)) (Cert.ReferenceIdeal.Read.val_main_v4 (F := Ideal) (m ((c : Thread nD τ).loc main_arg0))) (Cert.ReferenceIdeal.Read.val_main_v5 (F := Ideal) (m ((c : Thread nD τ).loc main_arg1)) (m ((c : Thread nD τ).loc main_arg2))) (m ((c : Thread nD τ).loc main_arg3)) (m ((c : Thread nD τ).loc main_arg4)) := by
  rw [Arrays.final_masked, Host.given_input, Host.given_keys, Host.given_weights, Host.given_inputNorms, Host.given_keyNorms,
    Host.given_gate, Host.given_bias]
  exact maskedW_stages _ _ _ _ _ _ _ _ _ _

/-- Every weakly fair execution of the kernel program terminates with its three results at these functions of the
    argument arrays, and the argument arrays unchanged. -/
theorem run : θ_run defs (onTc (τ := τ) (main (F := Ideal))) ⟨m, fun _ => 0, ρ⟩ fun r => ∀ c : Dev nD,
      r.2.mem ((c : Thread nD τ).loc main_v13) = shapeCast S4x2048x2048 (maskedFn (Cert.ReferenceIdeal.Read.val_main_v0 (F := Ideal) (m ((c : Thread nD τ).loc main_arg0))) (Cert.ReferenceIdeal.Read.val_main_v2 (F := Ideal) (m ((c : Thread nD τ).loc main_arg1)) (m ((c : Thread nD τ).loc main_arg2))) (m ((c : Thread nD τ).loc main_arg1)) (Cert.ReferenceIdeal.Read.val_main_v4 (F := Ideal) (m ((c : Thread nD τ).loc main_arg0))) (Cert.ReferenceIdeal.Read.val_main_v5 (F := Ideal) (m ((c : Thread nD τ).loc main_arg1)) (m ((c : Thread nD τ).loc main_arg2))) (m ((c : Thread nD τ).loc main_arg3)) (m ((c : Thread nD τ).loc main_arg4))) shapeCasts_S8192x2048_S4x2048x2048
      ∧ r.2.mem ((c : Thread nD τ).loc main_v12_1) = scoresFn (Cert.ReferenceIdeal.Read.val_main_v0 (F := Ideal) (m ((c : Thread nD τ).loc main_arg0))) (Cert.ReferenceIdeal.Read.val_main_v2 (F := Ideal) (m ((c : Thread nD τ).loc main_arg1)) (m ((c : Thread nD τ).loc main_arg2))) (Cert.ReferenceIdeal.Read.val_main_v4 (F := Ideal) (m ((c : Thread nD τ).loc main_arg0))) (Cert.ReferenceIdeal.Read.val_main_v5 (F := Ideal) (m ((c : Thread nD τ).loc main_arg1)) (m ((c : Thread nD τ).loc main_arg2)))
      ∧ r.2.mem ((c : Thread nD τ).loc main_v12_0) = maskedFn (Cert.ReferenceIdeal.Read.val_main_v0 (F := Ideal) (m ((c : Thread nD τ).loc main_arg0))) (Cert.ReferenceIdeal.Read.val_main_v2 (F := Ideal) (m ((c : Thread nD τ).loc main_arg1)) (m ((c : Thread nD τ).loc main_arg2))) (m ((c : Thread nD τ).loc main_arg1)) (Cert.ReferenceIdeal.Read.val_main_v4 (F := Ideal) (m ((c : Thread nD τ).loc main_arg0))) (Cert.ReferenceIdeal.Read.val_main_v5 (F := Ideal) (m ((c : Thread nD τ).loc main_arg1)) (m ((c : Thread nD τ).loc main_arg2))) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨
      ((h c).2 main_v13 (Pipeline.mem_restRefs_of main_v13 (by decide) (by decide))).trans
        ((Host.reshaped m c).trans (congrArg (fun a => shapeCast S4x2048x2048 a shapeCasts_S8192x2048_S4x2048x2048) (masked_final m c))),
      ((h c).1 8).trans (scores_final m c),
      ((h c).1 7).trans (masked_final m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.RunValue

end
-- ==== Proof.ReferenceValue.lean ====
/-
  The reference's two [8192, 2048] results as the same two functions.

  The reference computes, as stages of its own: the flattened input, the keys (the weights times the softplus of
  the spread parameter), the norm of every input row and of every key row. Read entry by entry, its quotient is
  the product of the flattened input with the keys — entry (r, c) the sum over k of input (r, k) times key (c, k) —
  divided by the larger of (norm of input row r) times (norm of key row c) and the floor; that is `scoresFn` of the
  four stages. Its last product is (the product with the weights, plus the bias at c) times the larger of (that
  quotient minus the gate at c) and zero: `maskedFn`. The keys and the norms are never opened: they enter only as the
  stages' names.
-/
import proofs.«175366_j26817775796689_2_alg».proof.Proof.Gen.ReferenceIdeal.Read
import proofs.«175366_j26817775796689_2_alg».proof.Proof.Formula

noncomputable section

namespace Cert.ReferenceIdeal.RefValue

open Cert.ReferenceIdeal Cert.ReferenceIdeal.Gen Cert.ReferenceIdeal.Read Idealize.ShloMosaic Idealize.ShloMosaic.ValueIdx Cert.CosineGate

variable (x0 : (⟨S4x2048x2048, .f32⟩ : BufTy).Contents (Elt Ideal)) (x1 x2 : (⟨S2048x2048, .f32⟩ : BufTy).Contents (Elt Ideal)) (x3 x4 : (⟨S2048, .f32⟩ : BufTy).Contents (Elt Ideal))

/-- The reference's quotient at (r, c). -/
theorem quotient_at (r : Fin 8192) (c : Fin 2048) :
    val_main_v13 (F := Ideal) x0 x1 x2 (ix2 r c)
      = scoreRC (val_main_v0 (F := Ideal) x0) (val_main_v2 (F := Ideal) x1 x2) (val_main_v4 (F := Ideal) x0) (val_main_v5 (F := Ideal) x1 x2) r c := by
  have hl : ∀ k : Fin 2048, lidx_main_v3 (ix2 r c) k = ix2 r k := fun k => funext fun a => Fin.ext (by match a with | ⟨0, _⟩ => rfl | ⟨1, _⟩ => rfl)
  have hr : ∀ k : Fin 2048, ridx_main_v3 (ix2 r c) k = ix2 c k := fun k => funext fun a => Fin.ext (by match a with | ⟨0, _⟩ => rfl | ⟨1, _⟩ => rfl)
  have hx : idx_main_v6 (idx_main_v8 (ix2 r c)) = ix1 r := funext fun a => Fin.ext (by match a with | ⟨0, _⟩ => rfl)
  have hk : idx_main_v7 (idx_main_v9 (ix2 r c)) = ix1 c := funext fun a => Fin.ext (by match a with | ⟨0, _⟩ => rfl)
  rw [val_main_v13_apply, val_main_v3_apply, val_main_v12_apply, val_main_v10_apply, val_main_v8_apply, val_main_v6_apply,
    val_main_v9_apply, val_main_v7_apply, val_main_v11_apply, val_main_cst_apply]
  simp only [hl, hr, hx, hk]
  rfl

/-- The reference's last product at (r, c). -/
theorem product_at (r : Fin 8192) (c : Fin 2048) :
    val_main_v22 (F := Ideal) x0 x1 x2 x3 x4 (ix2 r c)
      = gatedRC (val_main_v0 (F := Ideal) x0) (val_main_v2 (F := Ideal) x1 x2) x1 (val_main_v4 (F := Ideal) x0) (val_main_v5 (F := Ideal) x1 x2) x3 x4 r c := by
  have hl : ∀ k : Fin 2048, lidx_main_v18 (ix2 r c) k = ix2 r k := fun k => funext fun a => Fin.ext (by match a with | ⟨0, _⟩ => rfl | ⟨1, _⟩ => rfl)
  have hr : ∀ k : Fin 2048, ridx_main_v18 (ix2 r c) k = ix2 c k := fun k => funext fun a => Fin.ext (by match a with | ⟨0, _⟩ => rfl | ⟨1, _⟩ => rfl)
  have hg : idx_main_v14 (idx_main_v15 (ix2 r c)) = ix1 c := funext fun a => Fin.ext (by match a with | ⟨0, _⟩ => rfl)
  have hb : idx_main_v19 (idx_main_v20 (ix2 r c)) = ix1 c := funext fun a => Fin.ext (by match a with | ⟨0, _⟩ => rfl)
  rw [val_main_v22_apply, val_main_v21_apply, val_main_v18_apply, val_main_v20_apply, val_main_v19_apply, val_main_v17_apply,
    val_main_v16_apply, val_main_v15_apply, val_main_v14_apply, val_main_call3_v0_apply, val_main_call3_cst_apply, quotient_at]
  simp only [hl, hr, hg, hb]
  rfl

/-- The reference's second result is the array of scores of its stages. -/
theorem scores_eq : val_main_v13 (F := Ideal) x0 x1 x2
    = scoresFn (val_main_v0 (F := Ideal) x0) (val_main_v2 (F := Ideal) x1 x2) (val_main_v4 (F := Ideal) x0) (val_main_v5 (F := Ideal) x1 x2) := by
  funext i
  obtain ⟨r, c, rfl⟩ : ∃ (r : Fin 8192) (c : Fin 2048), i = ix2 r c := ⟨i 0, i 1, eq_ix2 i⟩
  exact quotient_at x0 x1 x2 r c

/-- The reference's third result is the array of gated projections of its stages and of the weights, gate and bias. -/
theorem masked_eq : val_main_v22 (F := Ideal) x0 x1 x2 x3 x4
    = maskedFn (val_main_v0 (F := Ideal) x0) (val_main_v2 (F := Ideal) x1 x2) x1 (val_main_v4 (F := Ideal) x0) (val_main_v5 (F := Ideal) x1 x2) x3 x4 := by
  funext i
  obtain ⟨r, c, rfl⟩ : ∃ (r : Fin 8192) (c : Fin 2048), i = ix2 r c := ⟨i 0, i 1, eq_ix2 i⟩
  exact product_at x0 x1 x2 x3 x4 r c

end Cert.ReferenceIdeal.RefValue

end
-- ==== Proof.lean ====
/-
  The certificate: the blocked kernel program and the reference compute the same three arrays on the extended reals.

  Both programs flatten the input to 8192 rows of 2048 features, form the keys (the weights times the softplus of
  the spread parameter) and take the norm of every input row and of every key row, by the same operations in the
  same order. From there entry (r, c) of the scores is
      (sum over k of input (r, k) * key (c, k)) / max (norm of input row r * norm of key row c) eps
  and entry (r, c) of the gated product is
      ((sum over k of input (r, k) * weight (c, k)) + bias c) * max (score (r, c) - gate c) 0,
  the first result being that product reshaped to [4, 2048, 2048]. The reference computes these with whole-array
  operations; the kernel program computes them block by block, 1024 rows by 256 columns at each of 64 grid points,
  each block from the matching rows of the input and the matching rows of the keys and weights. The sums are the
  same finite sums on both sides, term for term, so no law of arithmetic beyond that is needed and the inputs'
  finiteness is never used.

  The modules: Formula (the two entry formulas and the whole-array functions), Payload (what the body stores, at an
  entry of a block), KernelArrays (from the 64 blocks to the two whole result arrays), KernelHost (what the call is
  handed, and the reshape after it), Layout (the handed arrays are the stages re-laid), KernelValue (the kernel
  program's run with its results named), ReferenceValue (the reference's results as the same functions).
  The frames of the two kernel programs and the run of the reference are the generated ones.
-/
import proofs.«175366_j26817775796689_2_alg».proof.Defs
import proofs.«175366_j26817775796689_2_alg».proof.Proof.Gen.Kernel
import proofs.«175366_j26817775796689_2_alg».proof.Proof.Gen.Kernel.Frame
import proofs.«175366_j26817775796689_2_alg».proof.Proof.Gen.KernelIdeal
import proofs.«175366_j26817775796689_2_alg».proof.Proof.Gen.KernelIdeal.Frame
import proofs.«175366_j26817775796689_2_alg».proof.Proof.Gen.ReferenceIdeal
import proofs.«175366_j26817775796689_2_alg».proof.Proof.Gen.ReferenceIdeal.Run
import proofs.«175366_j26817775796689_2_alg».proof.Proof.Gen.ReferenceIdeal.Read
import proofs.«175366_j26817775796689_2_alg».proof.Proof.Gen.Pre_finite_inputs
import proofs.«175366_j26817775796689_2_alg».proof.Proof.KernelValue
import proofs.«175366_j26817775796689_2_alg».proof.Proof.ReferenceValue

noncomputable section

namespace Cert.Proof

open Idealize.ShloMosaic Idealize.ShloMosaic.TcCoe Idealize.SL.Sem

/-- The word-level kernel program terminates without a fault and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote nothing. -/
theorem preserves : Cert.preserves_Kernel_KernelIdeal := trivial

/-- From memories that agree on the five arguments, both idealized programs end with the same three results:
    the gated product reshaped, the scores, the gated product. -/
theorem algebraic : Cert.algebraic_KernelIdeal_ReferenceIdeal := by
  intro m ρ m' ρ' _ hagree
  refine ⟨_, _, _, Cert.KernelIdeal.RunValue.run m ρ, ?_⟩
  refine (θ_run Cert.ReferenceIdeal.defs _ _).mono (fun r h c => ?_) (Cert.ReferenceIdeal.Value.run (F := Ideal) m' ρ')
  obtain ⟨a0, a1, a2, a3, a4⟩ := hagree c
  refine ⟨(h c).1.trans ?_, (h c).2.1.trans ?_, (h c).2.2.1.trans ?_, (h c).2.2.2⟩
  · rw [Cert.ReferenceIdeal.Read.val_main_v23_eq, a0, a1, a2, a3, a4]
    unfold Cert.ReferenceIdeal.Read.val_main_v23
    rw [Cert.ReferenceIdeal.RefValue.masked_eq]
  · rw [Cert.ReferenceIdeal.Read.val_main_v13_eq, a0, a1, a2, Cert.ReferenceIdeal.RefValue.scores_eq]
  · rw [Cert.ReferenceIdeal.Read.val_main_v22_eq, a0, a1, a2, a3, a4, Cert.ReferenceIdeal.RefValue.masked_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
